-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x4096x2048 : S_.BroadcastsInDim S16x4096x2048 (![] : Fin 0 → Fin S16x4096x2048.rank)
  reducesTo_S16x4096x2048_S_d0_1_2 : S16x4096x2048.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S32768x2048 .f32) (main_arg1 : FVec F S16x4096x2048 .f32) (main_arg2 : FVec F S16x2048x2048 .f32) (main_arg3 : IVec S16 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x4096x2048 .f32 := Host.absf main_arg1
  let main_cst_0 : FVec F S_ .f32 := constant S_ .f32 0x7F800000#32
  let main_v5 : FVec F S16x4096x2048 .f32 := broadcastInDim S16x4096x2048 ![] bcast_S_S16x4096x2048 main_cst_0
  let main_v6 : IVec S16x4096x2048 1 := cmpf .olt main_v4 main_v5
  let main_c_1 : IVec S_ 1 := constantI S_ 1 1#1
  let main_v7 : IVec S_ 1 := (fun x v => Host.reduce IntOp.andi x v reducesTo_S16x4096x2048_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S16x2x2048x2048 : Shape := ⟨4, ![16, 2, 2048, 2048]⟩
abbrev S1x512x2048 : Shape := ⟨3, ![1, 512, 2048]⟩
abbrev S1x2x256x2048 : Shape := ⟨4, ![1, 2, 256, 2048]⟩
abbrev S1x256x2048 : Shape := ⟨3, ![1, 256, 2048]⟩
abbrev S512x2048 : Shape := ⟨2, ![512, 2048]⟩
abbrev S2x256x2048 : Shape := ⟨3, ![2, 256, 2048]⟩
abbrev S512x512 : Shape := ⟨2, ![512, 512]⟩
abbrev S512x256 : Shape := ⟨2, ![512, 256]⟩
abbrev S256x2048 : Shape := ⟨2, ![256, 2048]⟩

abbrev nBuf : Space → Nat
  | .hbm => 11
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S16x4096x2048, .f32⟩
  | .hbm, ⟨2, _⟩ => ⟨S16x2048x2048, .f32⟩
  | .hbm, ⟨3, _⟩ => ⟨S16, .i32⟩
  | .hbm, ⟨4, _⟩ => ⟨S16x2048x2048, .f32⟩
  | .hbm, ⟨5, _⟩ => ⟨S16x2048x2048, .bf16⟩
  | .hbm, ⟨6, _⟩ => ⟨S16x2x2048x2048, .f32⟩
  | .hbm, ⟨7, _⟩ => ⟨S16x2x2048x2048, .bf16⟩
  | .hbm, ⟨8, _⟩ => ⟨S16x2048x2048, .bf16⟩
  | .hbm, ⟨9, _⟩ => ⟨S16x2048x2048, .f32⟩
  | .hbm, ⟨10, _⟩ => ⟨S32768x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2x256x2048, .bf16⟩
  | .local _ .vmem, ⟨3, _⟩ => ⟨S1x2x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x512x2048, .f32⟩
  | .local _ .vmem, ⟨7, _⟩ => ⟨S1x512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x2048_S16x2048x2048 : S32768x2048.ShapeCasts S16x2048x2048
  bitsLt_bf16_f32 : FTy.bits .bf16 < FTy.bits .f32
  shapeCasts_S16x4096x2048_S16x2x2048x2048 : S16x4096x2048.ShapeCasts S16x2x2048x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x2x256x2048_S1x2x256x2048_0_0_0_0 : ∀ a, (![0, 0, 0, 0] : Fin 4 → Nat) a + S1x2x256x2048.size a ≤ S1x2x256x2048.size a
  h_S1x2x256x2048 : 0 < S1x2x256x2048.numel
  shapeCasts_S1x2x256x2048_S2x256x2048 : S1x2x256x2048.ShapeCasts S2x256x2048
  shapeCasts_S2x256x2048_S512x2048 : S2x256x2048.ShapeCasts S512x2048
  slices_S512x512_o0_0_S512x256 : S512x512.Slices ![0, 0] S512x256
  slices_S512x512_o0_256_S512x256 : S512x512.Slices ![0, 256] S512x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S16x2048x2048_S32768x2048 : S16x2048x2048.ShapeCasts S32768x2048
  dot_S512x2048_S512x2048_S512x512_1_1_0_0_n_n_wf : DotDims.WF S512x2048 S512x2048 S512x512 [1] [1] [0] [0] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .bf16 = 32 ∨ (Rect.block (s := S16x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256x2048.size a ≤ S16x2x2048x2048.size a
  hwx0_1 : ∀ i : grid0.Coords, EltTy.bits .bf16 = 32 ∨ (Rect.block (s := S16x2x2048x2048) S1x2x256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x2048x2048.size a
  hwx0_2 : ∀ i : grid0.Coords, EltTy.bits .bf16 = 32 ∨ (Rect.block (s := S16x2048x2048) S1x256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S16x2048x4096 : Shape := ⟨3, ![16, 2048, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x4096x2048, .f32⟩
  | .hbm, ⟨2, _⟩ => ⟨S16x2048x2048, .f32⟩
  | .hbm, ⟨3, _⟩ => ⟨S16, .i32⟩
  | .hbm, ⟨4, _⟩ => ⟨S16x2048x2048, .f32⟩
  | .hbm, ⟨5, _⟩ => ⟨S16x2048x4096, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S32768x2048_S16x2048x2048 : S32768x2048.ShapeCasts S16x2048x2048
  slices_S16x2048x4096_S16x2048x2048_0_0_0 : S16x2048x4096.Slices ![0, 0, 0] S16x2048x2048
  slices_S16x2048x4096_S16x2048x2048_0_0_2048 : S16x2048x4096.Slices ![0, 0, 2048] S16x2048x2048
  bcast_S_S16x2048x2048 : S_.BroadcastsInDim S16x2048x2048 (![] : Fin 0 → Fin S16x2048x2048.rank)
  shapeCasts_S16x2048x2048_S32768x2048 : S16x2048x2048.ShapeCasts S32768x2048
  dot_S16x2048x2048_S16x4096x2048_S16x2048x4096_2_2_1_1_0_0_wf : DotDims.WF S16x2048x2048 S16x4096x2048 S16x2048x4096 [2] [2] [1] [1] [0] [0]
  dot_S16x2048x2048_S16x2048x2048_S16x2048x2048_2_1_1_2_0_0_wf : DotDims.WF S16x2048x2048 S16x2048x2048 S16x2048x2048 [2] [1] [1] [2] [0] [0]

variable [Facts₀]

def dot_S16x2048x2048_S16x4096x2048_S16x2048x4096_2_2_1_1_0_0 : DotDims S16x2048x2048 S16x4096x2048 S16x2048x4096 where
  lhsContracting := [2]
  rhsContracting := [2]
  lhsNonContracting := [1]
  rhsNonContracting := [1]
  lhsBatch := [0]
  rhsBatch := [0]
  wf := dot_S16x2048x2048_S16x4096x2048_S16x2048x4096_2_2_1_1_0_0_wf
def dot_S16x2048x2048_S16x2048x2048_S16x2048x2048_2_1_1_2_0_0 : DotDims S16x2048x2048 S16x2048x2048 S16x2048x2048 where
  lhsContracting := [2]
  rhsContracting := [1]
  lhsNonContracting := [1]
  rhsNonContracting := [2]
  lhsBatch := [0]
  rhsBatch := [0]
  wf := dot_S16x2048x2048_S16x2048x2048_S16x2048x2048_2_1_1_2_0_0_wf

class Facts : Prop extends Facts₀ where

variable [Facts]
-- ==== Proof.KernelPieces.lean ====
/-
  What the kernel body leaves in the output block, case by case.

  At the first point of a run of hidden-unit blocks the body first stores a block of zeros, reads it back and stores
  the accumulated block; at every later point it reads the block the point before left and stores the accumulated
  block. Either way the last store covers the whole block, so the block ends holding that store's value: the
  accumulate payload applied to the three input blocks and to the zeros (first point) or to the previous contents
  (later points).
-/
import proofs.«127313_j8830452760817_2_alg».proof.Proof.Gen.KernelIdeal.Frame
import Idealize.ShloMosaic.Lib.Pipeline.Value
import Idealize.ShloMosaic.Lib.Tactic

noncomputable section

namespace Cert.MoeKernel

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point: the accumulate payload over the previous contents. -/
theorem out_B (c : Dev nD) (i : grid0.Coords) (arg3 : Memref sig .tc .vmem S1x512x2048 .bf16) (harg3 : arg3.IsWhole)
    (arg4 : Memref sig .tc .vmem S1x2x256x2048 .bf16) (harg4 : arg4.IsWhole)
    (arg5 : Memref sig .tc .vmem S1x256x2048 .bf16) (harg5 : arg5.IsWhole)
    (arg6 : Memref sig .tc .vmem S1x512x2048 .f32) (harg6 : arg6.IsWhole) (hc0 : ¬cond0_0 i)
    (x0 : Vec F S1x512x2048 .bf16) (x1 : Vec F S1x2x256x2048 .bf16) (x2 : Vec F S1x256x2048 .bf16)
    (xo3 : Vec F S1x512x2048 .f32) :
    out0_B_3 c i arg3 harg3 arg4 harg4 arg5 harg5 arg6 harg6 hc0 x0 x1 x2 xo3 = k0_pay2 x0 x1 x2 xo3 := by
  unfold out0_B_3
  rw [View.read_writes_eq_canon _ _ _ (cover0_B_3 c i arg3 harg3 arg4 harg4 arg5 harg5 arg6 harg6 hc0 x0 x1 x2 xo3)]
  unfold kernelRun0_B
  dsimp only
  rw [View.canon_unit_zero hz3]
  simp only [View.readAt_eq_ld, harg3.read_unread, harg4.read_unread, harg5.read_unread, harg6.read_unread,
    View.ld_unit_zero (S := S1x512x2048) hz3, View.ld_unit_zero (S := S1x2x256x2048) hz4,
    View.ld_unit_zero (S := S1x256x2048) hz3]

/-- The first point of a run: the accumulate payload over the block of zeros just stored. -/
theorem out_A (c : Dev nD) (i : grid0.Coords) (arg3 : Memref sig .tc .vmem S1x512x2048 .bf16) (harg3 : arg3.IsWhole)
    (arg4 : Memref sig .tc .vmem S1x2x256x2048 .bf16) (harg4 : arg4.IsWhole)
    (arg5 : Memref sig .tc .vmem S1x256x2048 .bf16) (harg5 : arg5.IsWhole)
    (arg6 : Memref sig .tc .vmem S1x512x2048 .f32) (harg6 : arg6.IsWhole) (hc0 : cond0_0 i)
    (x0 : Vec F S1x512x2048 .bf16) (x1 : Vec F S1x2x256x2048 .bf16) (x2 : Vec F S1x256x2048 .bf16) :
    out0_A_3 c i arg3 harg3 arg4 harg4 arg5 harg5 arg6 harg6 hc0 x0 x1 x2 = k0_pay2 x0 x1 x2 (k0_pay1 (F := F)) := by
  unfold out0_A_3
  rw [View.read_writes_eq_canon _ _ _ (cover0_A_3 c i arg3 harg3 arg4 harg4 arg5 harg5 arg6 harg6 hc0 x0 x1 x2)]
  unfold kernelRun0_A
  dsimp only
  sl_unfold_words
  rw [View.canon_cons_unit_zero (S := S1x512x2048) hz3, View.readCov_unit_zero (S := S1x512x2048) _ hz3]
  simp only [View.readAt_eq_ld, harg3.read_unread, harg4.read_unread, harg5.read_unread,
    View.ld_unit_zero (S := S1x512x2048) hz3, View.ld_unit_zero (S := S1x2x256x2048) hz4,
    View.ld_unit_zero (S := S1x256x2048) hz3]

end Cert.MoeKernel

end
-- ==== Proof.LibBlockedSum.lean ====
/-
  Blocked and padded finite sums.

  A sum over an index range of length n * b can be taken block by block: an outer sum over the n blocks and
  an inner sum over the b positions of a block, the position (j, k) standing for the index j * b + k. A sum
  over a range whose tail holds only zeros equals the sum over the range without the tail. Together: a blocked
  sum over a zero-padded range equals the plain sum over the unpadded range. A running total that starts from
  the first block and adds one block per step equals the sum of the blocks seen so far.

  Everything is stated over an arbitrary additive commutative monoid: only commutativity, associativity and the
  neutrality of zero are used, so no finiteness or distributivity hypothesis appears. The last section states
  the instance on the extended reals with a product of two zero-padded factors.
-/
import Mathlib.Algebra.BigOperators.Fin
import Mathlib.Algebra.BigOperators.Intervals
import Mathlib.Data.EReal.Operations

namespace Cert.LibBlockedSum

open Finset

variable {M : Type*} [AddCommMonoid M]

/-- A sum over n * b consecutive indices equals the sum over n blocks of the sums over the b positions
    of each block, the position k of block j being the index j * b + k. -/
theorem sum_blocks (n b : ℕ) (f : ℕ → M) :
    ∑ j : Fin n, ∑ k : Fin b, f (j.val * b + k.val) = ∑ i : Fin (n * b), f i.val := by
  rw [← Fintype.sum_prod_type']
  refine Fintype.sum_equiv finProdFinEquiv _ _ ?_
  rintro ⟨j, k⟩
  have e : (finProdFinEquiv (j, k)).val = j.val * b + k.val := by
    show k.val + b * j.val = j.val * b + k.val
    rw [Nat.mul_comm, Nat.add_comm]
  rw [e]

/-- A sum over N indices whose terms vanish from index K on equals the sum over the first K indices. -/
theorem sum_padded (K N : ℕ) (h : K ≤ N) (f : ℕ → M) (hz : ∀ i, K ≤ i → i < N → f i = 0) :
    ∑ i : Fin N, f i.val = ∑ i : Fin K, f i.val := by
  rw [Fin.sum_univ_eq_sum_range f N, Fin.sum_univ_eq_sum_range f K]
  symm
  refine Finset.sum_subset (Finset.range_subset_range.2 h) ?_
  intro i hiN hiK
  exact hz i (Nat.le_of_not_lt fun hlt => hiK (Finset.mem_range.2 hlt)) (Finset.mem_range.1 hiN)

/-- A blocked sum (n blocks of b positions) over a range whose terms vanish from index K on equals the
    plain sum over the first K indices. -/
theorem blocked_padded (n b K : ℕ) (h : K ≤ n * b) (f : ℕ → M) (hz : ∀ i, K ≤ i → i < n * b → f i = 0) :
    ∑ j : Fin n, ∑ k : Fin b, f (j.val * b + k.val) = ∑ i : Fin K, f i.val :=
  (sum_blocks n b f).trans (sum_padded K (n * b) h f hz)

/-- A running total that starts at the first block and adds the next block at every step equals, after step
    j, the sum of the blocks 0, …, j. -/
theorem acc_eq_sum (acc blk : ℕ → M) (h0 : acc 0 = blk 0) (hs : ∀ j, acc (j + 1) = acc j + blk (j + 1))
    (j : ℕ) : acc j = ∑ i : Fin (j + 1), blk i.val := by
  induction j with
  | zero => rw [h0, Fin.sum_univ_one]; rfl
  | succ j ih => rw [hs, ih, Fin.sum_univ_castSucc (fun i : Fin (j + 1 + 1) => blk i.val)]; rfl

/-- The same with the first step written as an addition to a zero total. -/
theorem acc_eq_sum_of_zero_add (acc blk : ℕ → M) (h0 : acc 0 = 0 + blk 0)
    (hs : ∀ j, acc (j + 1) = acc j + blk (j + 1)) (j : ℕ) : acc j = ∑ i : Fin (j + 1), blk i.val :=
  acc_eq_sum acc blk (h0.trans (zero_add _)) hs j

/-- The running total after step j, each block being itself a sum over b positions of a function whose
    terms vanish from index K on, with (j + 1) * b indices covered so far: the plain sum over the first K
    indices. -/
theorem acc_blocked_padded (b K : ℕ) (f : ℕ → M) (acc : ℕ → M)
    (h0 : acc 0 = ∑ k : Fin b, f (0 * b + k.val))
    (hs : ∀ j, acc (j + 1) = acc j + ∑ k : Fin b, f ((j + 1) * b + k.val))
    (j : ℕ) (h : K ≤ (j + 1) * b) (hz : ∀ i, K ≤ i → i < (j + 1) * b → f i = 0) :
    acc j = ∑ i : Fin K, f i.val := by
  rw [acc_eq_sum acc (fun j => ∑ k : Fin b, f (j * b + k.val)) h0 hs j]
  exact blocked_padded (j + 1) b K h f hz

section EReal

/-- The product of two factors that are zero from index K on is zero from index K on (on the extended
    reals 0 * 0 = 0; nothing is assumed about the factors below K). -/
theorem padded_mul_eq_zero (K : ℕ) (v c : ℕ → EReal) (i : ℕ) (h : K ≤ i) :
    (if i < K then v i else 0) * (if i < K then c i else 0) = 0 := by
  rw [if_neg (Nat.not_lt.2 h), if_neg (Nat.not_lt.2 h), mul_zero]

/-- The contraction of a zero-padded row with a zero-padded column, taken in n blocks of b, equals the
    contraction of the unpadded row and column: general extents. -/
theorem blocked_padded_dot (n b K : ℕ) (h : K ≤ n * b) (v c : ℕ → EReal) :
    ∑ j : Fin n, ∑ k : Fin b,
        (if j.val * b + k.val < K then v (j.val * b + k.val) else 0) *
          (if j.val * b + k.val < K then c (j.val * b + k.val) else 0) =
      ∑ f : Fin K, v f.val * c f.val := by
  rw [blocked_padded n b K h (fun i => (if i < K then v i else 0) * (if i < K then c i else 0))
    (fun i hK _ => padded_mul_eq_zero K v c i hK)]
  refine Finset.sum_congr rfl fun i _ => ?_
  rw [if_pos i.isLt, if_pos i.isLt]

/-- The instance with 40 blocks of 512 positions covering 20480 indices, of which the first 20000 carry data
    and the last 480 are zero padding. -/
theorem blocked_padded_dot_40_512 (v c : ℕ → EReal) :
    ∑ j : Fin 40, ∑ k : Fin 512,
        (if j.val * 512 + k.val < 20000 then v (j.val * 512 + k.val) else 0) *
          (if j.val * 512 + k.val < 20000 then c (j.val * 512 + k.val) else 0) =
      ∑ f : Fin 20000, v f.val * c f.val :=
  blocked_padded_dot 40 512 20000 (by norm_num) v c

/-- The same instance for padded functions given by name. -/
theorem blocked_padded_dot_40_512' (v c vp cp : ℕ → EReal)
    (hv : ∀ i, vp i = if i < 20000 then v i else 0) (hc : ∀ i, cp i = if i < 20000 then c i else 0) :
    ∑ j : Fin 40, ∑ k : Fin 512, vp (j.val * 512 + k.val) * cp (j.val * 512 + k.val) =
      ∑ f : Fin 20000, v f.val * c f.val := by
  rw [← blocked_padded_dot_40_512 v c]
  refine Finset.sum_congr rfl fun j _ => Finset.sum_congr rfl fun k _ => ?_
  rw [hv, hc]

end EReal

end Cert.LibBlockedSum
-- ==== Proof.Spec.lean ====
/-
  The mixture-of-experts feed-forward block as one function of its three argument arrays, over the extended reals.

  Tokens are grouped by expert: expert e owns rows e * 2048 … e * 2048 + 2047 of the token array x. For a token row of
  expert e and a hidden unit h (0 ≤ h < 2048) let

      up   = Σ_k x[row, k] * w[e, h, k]            gate = Σ_k x[row, k] * w[e, 2048 + h, k]
      a(h) = up * (gate * logistic gate)

  and the output entry in column d is  Σ_h a(h) * v[e, h, d]  over the 2048 hidden units. The same sum can be taken
  in 8 consecutive blocks of 256 hidden units, accumulated one block after another starting from zero: addition on the
  extended reals is commutative and associative and zero is neutral, so the two groupings agree without any
  finiteness hypothesis.

  Array entries are read through accessors that take natural-number coordinates and return zero outside the array,
  so that coordinate arithmetic (a row split as expert * 2048 + offset, a hidden unit split as block * 256 + offset)
  is ordinary arithmetic on naturals.
-/
import Idealize.ShloMosaic.PureOps.Ideal
import Idealize.ShloMosaic.Lib.ValueIdx
import proofs.«127313_j8830452760817_2_alg».proof.Proof.LibBlockedSum

noncomputable section

namespace Cert.MoeSpec

open Idealize.ShloMosaic Idealize.ShloMosaic.ValueIdx

/-- The token array's shape [32768, 2048], the up-and-gate weights' [16, 4096, 2048], the down weights' and the
    grouped output's [16, 2048, 2048]. -/
abbrev SX : Shape := ⟨2, ![32768, 2048]⟩
abbrev SW : Shape := ⟨3, ![16, 4096, 2048]⟩
abbrev SD : Shape := ⟨3, ![16, 2048, 2048]⟩

/-- Entry (a, b) of a [32768, 2048] array; zero outside it. -/
def atX (X : SX.Idx → EReal) (a b : ℕ) : EReal :=
  if h : a < 32768 ∧ b < 2048 then X (ix2 ⟨a, h.1⟩ ⟨b, h.2⟩) else 0

/-- Entry (e, a, b) of a [16, 4096, 2048] array; zero outside it. -/
def atW (W : SW.Idx → EReal) (e a b : ℕ) : EReal :=
  if h : e < 16 ∧ a < 4096 ∧ b < 2048 then W (ix3 ⟨e, h.1⟩ ⟨a, h.2.1⟩ ⟨b, h.2.2⟩) else 0

/-- Entry (e, a, b) of a [16, 2048, 2048] array; zero outside it. -/
def atD (D : SD.Idx → EReal) (e a b : ℕ) : EReal :=
  if h : e < 16 ∧ a < 2048 ∧ b < 2048 then D (ix3 ⟨e, h.1⟩ ⟨a, h.2.1⟩ ⟨b, h.2.2⟩) else 0

theorem atX_eq (X : SX.Idx → EReal) (a b : ℕ) (i : SX.Idx) (h0 : (i 0).val = a) (h1 : (i 1).val = b) :
    X i = atX X a b := by
  subst h0 h1
  rw [atX, dif_pos ⟨(i 0).isLt, (i 1).isLt⟩]
  exact congrArg X (eq_ix2 i)

theorem atW_eq (W : SW.Idx → EReal) (e a b : ℕ) (i : SW.Idx) (h0 : (i 0).val = e) (h1 : (i 1).val = a)
    (h2 : (i 2).val = b) : W i = atW W e a b := by
  subst h0 h1 h2
  rw [atW, dif_pos ⟨(i 0).isLt, (i 1).isLt, (i 2).isLt⟩]
  exact congrArg W (eq_ix3 i)

theorem atD_eq (D : SD.Idx → EReal) (e a b : ℕ) (i : SD.Idx) (h0 : (i 0).val = e) (h1 : (i 1).val = a)
    (h2 : (i 2).val = b) : D i = atD D e a b := by
  subst h0 h1 h2
  rw [atD, dif_pos ⟨(i 0).isLt, (i 1).isLt, (i 2).isLt⟩]
  exact congrArg D (eq_ix3 i)

variable (X : SX.Idx → EReal) (W : SW.Idx → EReal) (D : SD.Idx → EReal)

/-- Row `row` of expert `e`'s tokens contracted with row `n` of that expert's up-and-gate weights. -/
def dotXW (e row n : ℕ) : EReal := ∑ k : Fin 2048, atX X (e * 2048 + row) k.val * atW W e n k.val

/-- The activated hidden unit `h`: up * (gate * logistic gate), the gate rows being the weights' second half. -/
def hact (e row h : ℕ) : EReal :=
  dotXW X W e row h * (dotXW X W e row (2048 + h) * Ideal.logistic (dotXW X W e row (2048 + h)))

/-- Hidden unit `h`'s contribution to output column `d`. -/
def addend (e row d h : ℕ) : EReal := hact X W e row h * atD D e h d

/-- The grouped output [16, 2048, 2048]: the contributions of all 2048 hidden units. -/
def out3 : SD.Idx → EReal := fun i => ∑ h : Fin 2048, addend X W D (i 0).val (i 1).val (i 2).val h.val

/-- The contributions of the 256 hidden units of block `hb`. -/
def blockSum (e row d hb : ℕ) : EReal := ∑ j : Fin 256, addend X W D e row d (hb * 256 + j.val)

/-- The running total after block `n`, started from zero. -/
def running (f : ℕ → EReal) : ℕ → EReal
  | 0 => 0 + f 0
  | n + 1 => running f n + f (n + 1)

theorem running_eq_sum (f : ℕ → EReal) (n : ℕ) : running f n = ∑ i : Fin (n + 1), f i.val :=
  Cert.LibBlockedSum.acc_eq_sum_of_zero_add (running f) f rfl (fun _ => rfl) n

/-- The output entry is the running total of the block sums after the eighth block. -/
theorem out3_eq_running (i : SD.Idx) :
    out3 X W D i = running (blockSum X W D (i 0).val (i 1).val (i 2).val) 7 := by
  rw [running_eq_sum]
  exact (Cert.LibBlockedSum.sum_blocks 8 256 (addend X W D (i 0).val (i 1).val (i 2).val)).symm

end Cert.MoeSpec

end
-- ==== Proof.KernelBlocks.lean ====
/-
  The blocks the kernel reads, entry by entry, in terms of the argument arrays.

  Before the region the host reshapes the token array [32768, 2048] to [16, 2048, 2048] (row e * 2048 + row becomes
  (e, row)), reshapes the up-and-gate weights [16, 4096, 2048] to [16, 2, 2048, 2048] (weight row s * 2048 + h becomes
  (s, h)), and changes all three arrays' float format, which is the identity on the extended reals. Grid point t stands
  for expert t / 32, token tile (t / 8) % 4 and hidden tile t % 8; its token block is rows tile * 512 … of the expert's
  tokens, its weight block the hidden rows tile * 256 … of both halves, its down block the same hidden rows.
-/
import proofs.«127313_j8830452760817_2_alg».proof.Proof.Gen.KernelIdeal.Frame
import proofs.«127313_j8830452760817_2_alg».proof.Proof.Spec
import Idealize.ShloMosaic.Lib.Pipeline.Value
import Idealize.ShloMosaic.Lib.StableHlo.Run
import Idealize.ShloMosaic.Lib.Tactic

noncomputable section

namespace Cert.MoeBlocks

open Idealize.ShloMosaic Idealize.ShloMosaic.TcCoe Idealize.SL.Sem Idealize.ShloMosaic.ValueIdx
open Cert.KernelIdeal Cert.KernelIdeal.Gen Cert.MoeSpec

variable (m : (ℓ : Loc nD τ sig) → Buf (Elt Ideal) ℓ)

/-- The token array as the region finds it. -/
theorem V_v1 (c : Dev nD) : (V m c main_v1 : S16x2048x2048.Idx → EReal)
    = truncf (F := Ideal) .bf16
        (shapeCast S16x2048x2048 (m ((c : Thread nD τ).loc main_arg0)) shapeCasts_S32768x2048_S16x2048x2048)
        bitsLt_bf16_f32 := by
  show StableHlo.after hostOps0 (fun b => m (c, b)) (Proc.devRef .tc main_v1) = _
  after_results
  rfl

/-- The up-and-gate weights as the region finds them. -/
theorem V_v3 (c : Dev nD) : (V m c main_v3 : S16x2x2048x2048.Idx → EReal)
    = truncf (F := Ideal) .bf16
        (shapeCast S16x2x2048x2048 (m ((c : Thread nD τ).loc main_arg1)) shapeCasts_S16x4096x2048_S16x2x2048x2048)
        bitsLt_bf16_f32 := by
  show StableHlo.after hostOps0 (fun b => m (c, b)) (Proc.devRef .tc main_v3) = _
  after_results
  rfl

/-- The down weights as the region finds them. -/
theorem V_v4 (c : Dev nD) : (V m c main_v4 : S16x2048x2048.Idx → EReal)
    = truncf (F := Ideal) (s := S16x2048x2048) .bf16 (m ((c : Thread nD τ).loc main_arg2)) bitsLt_bf16_f32 := by
  show StableHlo.after hostOps0 (fun b => m (c, b)) (Proc.devRef .tc main_v4) = _
  after_results

theorem V_v1_at (c : Dev nD) (i : S16x2048x2048.Idx) :
    (V m c main_v1 : S16x2048x2048.Idx → EReal) i
      = atX (m ((c : Thread nD τ).loc main_arg0)) ((i 0).val * 2048 + (i 1).val) (i 2).val := by
  have h0 : (i 0).val < 16 := (i 0).isLt
  have h1 : (i 1).val < 2048 := (i 1).isLt
  refine (congrFun (V_v1 m c) i).trans ?_
  rw [truncf_apply, shapeCast_apply _ shapeCasts_S32768x2048_S16x2048x2048 i
    (ix2 (⟨(i 0).val * 2048 + (i 1).val, by omega⟩ : Fin 32768) (i 2)) (by
      rw [Shape.rowMajor_val_two, Shape.rowMajor_val_three]; rfl)]
  exact atX_eq _ _ _ _ rfl rfl

theorem V_v3_at (c : Dev nD) (i : S16x2x2048x2048.Idx) :
    (V m c main_v3 : S16x2x2048x2048.Idx → EReal) i
      = atW (m ((c : Thread nD τ).loc main_arg1)) (i 0).val ((i 1).val * 2048 + (i 2).val) (i 3).val := by
  have h1 : (i 1).val < 2 := (i 1).isLt
  have h2 : (i 2).val < 2048 := (i 2).isLt
  refine (congrFun (V_v3 m c) i).trans ?_
  rw [truncf_apply, shapeCast_apply _ shapeCasts_S16x4096x2048_S16x2x2048x2048 i
    (ix3 (i 0) (⟨(i 1).val * 2048 + (i 2).val, by omega⟩ : Fin 4096) (i 3)) (by
      rw [Shape.rowMajor_val_three, Shape.rowMajor_val_four]
      show ((i 0).val * 4096 + ((i 1).val * 2048 + (i 2).val)) * 2048 + (i 3).val
        = (((i 0).val * 2 + (i 1).val) * 2048 + (i 2).val) * 2048 + (i 3).val
      omega)]
  exact atW_eq _ _ _ _ _ rfl rfl rfl

theorem V_v4_at (c : Dev nD) (i : S16x2048x2048.Idx) :
    (V m c main_v4 : S16x2048x2048.Idx → EReal) i
      = atD (m ((c : Thread nD τ).loc main_arg2)) (i 0).val (i 1).val (i 2).val := by
  refine (congrFun (V_v4 m c) i).trans ?_
  rw [truncf_apply]
  exact atD_eq _ _ _ _ _ rfl rfl rfl

/-- Where each window's block sits at grid point t. -/
theorem idx_facts : ∀ t : Fin cfg0.N,
    win0_0.index t 0 = t.val / 32 ∧ win0_0.index t 1 = t.val / 8 % 4 ∧ win0_0.index t 2 = 0
    ∧ win0_1.index t 0 = t.val / 32 ∧ win0_1.index t 1 = 0 ∧ win0_1.index t 2 = t.val % 8 ∧ win0_1.index t 3 = 0
    ∧ win0_2.index t 0 = t.val / 32 ∧ win0_2.index t 1 = t.val % 8 ∧ win0_2.index t 2 = 0
    ∧ win0_3.index t 0 = t.val / 32 ∧ win0_3.index t 1 = t.val / 8 % 4 ∧ win0_3.index t 2 = 0 :=
  (by decide +kernel : ∀ t : Fin grid0.N,
    win0_0.index t 0 = t.val / 32 ∧ win0_0.index t 1 = t.val / 8 % 4 ∧ win0_0.index t 2 = 0
    ∧ win0_1.index t 0 = t.val / 32 ∧ win0_1.index t 1 = 0 ∧ win0_1.index t 2 = t.val % 8 ∧ win0_1.index t 3 = 0
    ∧ win0_2.index t 0 = t.val / 32 ∧ win0_2.index t 1 = t.val % 8 ∧ win0_2.index t 2 = 0
    ∧ win0_3.index t 0 = t.val / 32 ∧ win0_3.index t 1 = t.val / 8 % 4 ∧ win0_3.index t 2 = 0)

theorem arith_row (n r : ℕ) : (n / 32 * 1 + 1 * 0) * 2048 + (n / 8 % 4 * 512 + 1 * r)
    = n / 32 * 2048 + (n / 8 % 4 * 512 + r) := by omega
theorem arith_last (k : ℕ) : 0 * 2048 + 1 * k = k := by omega
theorem arith_expert (n : ℕ) : n / 32 * 1 + 1 * 0 = n / 32 := by omega
theorem arith_wrow (n s j : ℕ) : (0 * 2 + 1 * s) * 2048 + (n % 8 * 256 + 1 * j) = s * 2048 + (n % 8 * 256 + j) := by omega
theorem arith_hrow (n j : ℕ) : n % 8 * 256 + 1 * j = n % 8 * 256 + j := by omega

set_option maxHeartbeats 1000000 in
/-- The token block at point t. -/
theorem iblk0_at (c : Dev nD) (t : Fin cfg0.N) (r : Fin 512) (k : Fin 2048) :
    (iblk m c 0 t : Vec Ideal S1x512x2048 .bf16) (ix3 (0 : Fin 1) r k)
      = atX (m ((c : Thread nD τ).loc main_arg0)) (t.val / 32 * 2048 + (t.val / 8 % 4 * 512 + r.val)) k.val := by
  unfold iblk
  rw [View.read_apply]
  show (V m c main_v1 : S16x2048x2048.Idx → EReal) (((cfg0.win 0).blk t).view.emb (ix3 (0 : Fin 1) r k)) = _
  rw [V_v1_at]
  obtain ⟨h0, h1, h2, -⟩ := idx_facts t
  have e0 : ((((cfg0.win 0).blk t).view.emb (ix3 (0 : Fin 1) r k)) 0).val = win0_0.index t 0 * 1 + 1 * 0 := rfl
  have e1 : ((((cfg0.win 0).blk t).view.emb (ix3 (0 : Fin 1) r k)) 1).val = win0_0.index t 1 * 512 + 1 * r.val := rfl
  have e2 : ((((cfg0.win 0).blk t).view.emb (ix3 (0 : Fin 1) r k)) 2).val = win0_0.index t 2 * 2048 + 1 * k.val := rfl
  rw [e0, e1, e2, h0, h1, h2, arith_row, arith_last]

set_option maxHeartbeats 1000000 in
/-- The up-and-gate block at point t: half s, hidden row tile * 256 + j. -/
theorem iblk1_at (c : Dev nD) (t : Fin cfg0.N) (s : Fin 2) (j : Fin 256) (k : Fin 2048) :
    (iblk m c 1 t : Vec Ideal S1x2x256x2048 .bf16) (ix4 (0 : Fin 1) s j k)
      = atW (m ((c : Thread nD τ).loc main_arg1)) (t.val / 32) (s.val * 2048 + (t.val % 8 * 256 + j.val)) k.val := by
  unfold iblk
  rw [View.read_apply]
  show (V m c main_v3 : S16x2x2048x2048.Idx → EReal) (((cfg0.win 1).blk t).view.emb (ix4 (0 : Fin 1) s j k)) = _
  rw [V_v3_at]
  obtain ⟨-, -, -, h0, h1, h2, h3, -⟩ := idx_facts t
  have e0 : ((((cfg0.win 1).blk t).view.emb (ix4 (0 : Fin 1) s j k)) 0).val = win0_1.index t 0 * 1 + 1 * 0 := rfl
  have e1 : ((((cfg0.win 1).blk t).view.emb (ix4 (0 : Fin 1) s j k)) 1).val = win0_1.index t 1 * 2 + 1 * s.val := rfl
  have e2 : ((((cfg0.win 1).blk t).view.emb (ix4 (0 : Fin 1) s j k)) 2).val = win0_1.index t 2 * 256 + 1 * j.val := rfl
  have e3 : ((((cfg0.win 1).blk t).view.emb (ix4 (0 : Fin 1) s j k)) 3).val = win0_1.index t 3 * 2048 + 1 * k.val := rfl
  rw [e0, e1, e2, e3, h0, h1, h2, h3, arith_expert, arith_wrow, arith_last]

set_option maxHeartbeats 1000000 in
/-- The down block at point t: hidden row tile * 256 + j. -/
theorem iblk2_at (c : Dev nD) (t : Fin cfg0.N) (j : Fin 256) (d : Fin 2048) :
    (iblk m c 2 t : Vec Ideal S1x256x2048 .bf16) (ix3 (0 : Fin 1) j d)
      = atD (m ((c : Thread nD τ).loc main_arg2)) (t.val / 32) (t.val % 8 * 256 + j.val) d.val := by
  unfold iblk
  rw [View.read_apply]
  show (V m c main_v4 : S16x2048x2048.Idx → EReal) (((cfg0.win 2).blk t).view.emb (ix3 (0 : Fin 1) j d)) = _
  rw [V_v4_at]
  obtain ⟨-, -, -, -, -, -, -, h0, h1, h2, -⟩ := idx_facts t
  have e0 : ((((cfg0.win 2).blk t).view.emb (ix3 (0 : Fin 1) j d)) 0).val = win0_2.index t 0 * 1 + 1 * 0 := rfl
  have e1 : ((((cfg0.win 2).blk t).view.emb (ix3 (0 : Fin 1) j d)) 1).val = win0_2.index t 1 * 256 + 1 * j.val := rfl
  have e2 : ((((cfg0.win 2).blk t).view.emb (ix3 (0 : Fin 1) j d)) 2).val = win0_2.index t 2 * 2048 + 1 * d.val := rfl
  rw [e0, e1, e2, h0, h1, h2, arith_expert, arith_hrow, arith_last]

end Cert.MoeBlocks

end
-- ==== Proof.KernelPayload.lean ====
/-
  The accumulate payload, entry by entry, on the extended reals.

  With x the [512, 2048] token block, w the [2, 256, 2048] block of up rows (first half) and gate rows (second half),
  v the [256, 2048] block of down weights and acc the previous contents of the output block, entry (r, d) of the new
  contents is

      acc(r, d) + Σ_j (up_j * (gate_j * logistic gate_j)) * v(j, d),      up_j   = Σ_k x(r, k) * w(0, j, k),
                                                                           gate_j = Σ_k x(r, k) * w(1, j, k).

  The two weight halves are stacked into 512 rows before the first matrix product (row s * 256 + j is (s, j)), and the
  up and gate columns are the two halves of that product's 512 columns. A matrix product into a zero accumulator is the
  plain sum of products over the contracted axis; a change of float format is the identity.
-/
import proofs.«127313_j8830452760817_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.MoePayload

open Idealize.ShloMosaic Idealize.ShloMosaic.ValueIdx
open Cert.KernelIdeal Cert.KernelIdeal.Gen

theorem lhs1_0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem lhs1_1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem rhs1_0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem rhs1_1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

theorem lhs2_0 (i : S512x2048.Idx) (q : dot_S512x256_S256x2048_S512x2048_1_0_0_1_n_n.contr.Idx) : (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem lhs2_1 (i : S512x2048.Idx) (q : dot_S512x256_S256x2048_S512x2048_1_0_0_1_n_n.contr.Idx) : (dot_S512x256_S256x2048_S512x2048_1_0_0_1_n_n.lhsIdx i q 1).val = (q ⟨0, by decide⟩).val :=
  dot_S512x256_S256x2048_S512x2048_1_0_0_1_n_n.lhsIdx_val_of_single rfl i q
theorem rhs2_0 (i : S512x2048.Idx) (q : dot_S512x256_S256x2048_S512x2048_1_0_0_1_n_n.contr.Idx) : (dot_S512x256_S256x2048_S512x2048_1_0_0_1_n_n.rhsIdx i q 0).val = (q ⟨0, by decide⟩).val :=
  dot_S512x256_S256x2048_S512x2048_1_0_0_1_n_n.rhsIdx_val_of_single rfl i q
theorem rhs2_1 (i : S512x2048.Idx) (q : dot_S512x256_S256x2048_S512x2048_1_0_0_1_n_n.contr.Idx) : (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- The first matrix product (both operands contracted along their second axis) into zeros, at (r, n). -/
theorem mm1_apply (a b : FVec Ideal S512x2048 .bf16) (r n : Fin 512) :
    matmul dot_S512x2048_S512x2048_S512x512_1_1_0_0_n_n none a b (constant S512x512 .f32 0x00000000#32) (ix2 r n)
      = ∑ k : Fin 2048, a (ix2 r k) * b (ix2 n k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 r n) ((contrEquiv1 dot_S512x2048_S512x2048_S512x512_1_1_0_0_n_n 2048 rfl rfl).symm k) = ix2 r k :=
    funext fun ax => Fin.ext (by
      match ax with
      | ⟨0, _⟩ => exact lhs1_0 _ _
      | ⟨1, _⟩ => exact (lhs1_1 _ _).trans hk)
  have er : dot_S512x2048_S512x2048_S512x512_1_1_0_0_n_n.rhsIdx (ix2 r n) ((contrEquiv1 dot_S512x2048_S512x2048_S512x512_1_1_0_0_n_n 2048 rfl rfl).symm k) = ix2 n k :=
    funext fun ax => Fin.ext (by
      match ax with
      | ⟨0, _⟩ => exact rhs1_0 _ _
      | ⟨1, _⟩ => exact (rhs1_1 _ _).trans hk)
  rw [el, er]

/-- The second matrix product (rows times columns) into zeros, at (r, d). -/
theorem mm2_apply (a : FVec Ideal S512x256 .bf16) (b : FVec Ideal S256x2048 .bf16) (r : Fin 512) (d : Fin 2048) :
    matmul dot_S512x256_S256x2048_S512x2048_1_0_0_1_n_n none a b (constant S512x2048 .f32 0x00000000#32) (ix2 r d)
      = ∑ j : Fin 256, a (ix2 r j) * b (ix2 j d) := by
  simp only [matmul]
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 r d) ((contrEquiv1 dot_S512x256_S256x2048_S512x2048_1_0_0_1_n_n 256 rfl rfl).symm k) = ix2 r k :=
    funext fun ax => Fin.ext (by
      match ax with
      | ⟨0, _⟩ => exact lhs2_0 _ _
      | ⟨1, _⟩ => exact (lhs2_1 _ _).trans hk)
  have er : dot_S512x256_S256x2048_S512x2048_1_0_0_1_n_n.rhsIdx (ix2 r d) ((contrEquiv1 dot_S512x256_S256x2048_S512x2048_1_0_0_1_n_n 256 rfl rfl).symm k) = ix2 k d :=
    funext fun ax => Fin.ext (by
      match ax with
      | ⟨0, _⟩ => exact (rhs2_0 _ _).trans hk
      | ⟨1, _⟩ => exact rhs2_1 _ _)
  rw [el, er]

/-- The two weight halves stacked into 512 rows: row s * 256 + j is row j of half s. -/
theorem stacked_apply (x1 : Vec Ideal S1x2x256x2048 .bf16) (h1 : S1x2x256x2048.ShapeCasts S2x256x2048)
    (h2 : S2x256x2048.ShapeCasts S512x2048) (s : Fin 2) (j : Fin 256) (k : Fin 2048) (n : Fin 512)
    (hn : n.val = s.val * 256 + j.val) :
    shapeCast S512x2048 (shapeCast S2x256x2048 x1 h1) h2 (ix2 n k) = x1 (ix4 (0 : Fin 1) s j k) := by
  rw [shapeCast_apply (shapeCast S2x256x2048 x1 h1) h2 (ix2 n k) (ix3 s j k) (by
    rw [Shape.rowMajor_val_three, Shape.rowMajor_val_two]
    show (s.val * 256 + j.val) * 2048 + k.val = n.val * 2048 + k.val
    rw [hn])]
  exact shapeCast_1abc_abc_apply x1 h1 s j k

/-- The block of zeros the first point stores. -/
theorem pay1_apply (y : S1x512x2048.Idx) : k0_pay1 (F := Ideal) y = 0 := by
  unfold k0_pay1
  show Ideal.ofBits .f32 0x00000000#32 = 0
  exact Ideal.ofBits_zero_f32

/-- The accumulated block at (0, r, d). -/
theorem pay2_apply (x0 : Vec Ideal S1x512x2048 .bf16) (x1 : Vec Ideal S1x2x256x2048 .bf16)
    (x2 : Vec Ideal S1x256x2048 .bf16) (acc : Vec Ideal S1x512x2048 .f32) (r : Fin 512) (d : Fin 2048) :
    k0_pay2 (F := Ideal) x0 x1 x2 acc (ix3 (0 : Fin 1) r d)
      = acc (ix3 (0 : Fin 1) r d) + ∑ j : Fin 256,
          ((∑ k : Fin 2048, x0 (ix3 (0 : Fin 1) r k) * x1 (ix4 (0 : Fin 1) (0 : Fin 2) j k))
            * ((∑ k : Fin 2048, x0 (ix3 (0 : Fin 1) r k) * x1 (ix4 (0 : Fin 1) (1 : Fin 2) j k))
              * Ideal.logistic (∑ k : Fin 2048, x0 (ix3 (0 : Fin 1) r k) * x1 (ix4 (0 : Fin 1) (1 : Fin 2) j k))))
          * x2 (ix3 (0 : Fin 1) j d) := by
  unfold k0_pay2
  rw [shapeCast_ab_1ab_apply, addf_apply, shapeCast_1ab_ab_apply, mm2_apply]
  refine congrArg (_ + ·) (Finset.sum_congr rfl fun j _ => ?_)
  rw [truncf_apply, mulf_apply, mulf_apply, shapeCast_1ab_ab_apply]
  have hlog : ∀ (v : FVec Ideal S512x256 .f32) (i : S512x256.Idx), logistic v i = Ideal.logistic (v i) :=
    fun _ _ => rfl
  have hj : j.val < 256 := j.isLt
  have eup : ∀ (v : FVec Ideal S512x512 .f32) (h : S512x512.Slices ![0, 0] S512x256),
      extractStridedSlice S512x256 ![0, 0] v h (ix2 r j) = v (ix2 r (⟨j.val, by omega⟩ : Fin 512)) := fun v h =>
    extractStridedSlice_apply _ v h _ _ (fun ax => by
      match ax with
      | ⟨0, _⟩ => exact (Nat.zero_add _).symm
      | ⟨1, _⟩ => exact (Nat.zero_add _).symm)
  have egate : ∀ (v : FVec Ideal S512x512 .f32) (h : S512x512.Slices ![0, 256] S512x256),
      extractStridedSlice S512x256 ![0, 256] v h (ix2 r j) = v (ix2 r (⟨256 + j.val, by omega⟩ : Fin 512)) := fun v h =>
    extractStridedSlice_apply _ v h _ _ (fun ax => by
      match ax with
      | ⟨0, _⟩ => exact (Nat.zero_add _).symm
      | ⟨1, _⟩ => rfl)
  rw [hlog, eup, egate, mm1_apply, mm1_apply]
  simp only [shapeCast_1ab_ab_apply,
    fun k => stacked_apply x1 shapeCasts_S1x2x256x2048_S2x256x2048 shapeCasts_S2x256x2048_S512x2048 (0 : Fin 2) j k
      ⟨j.val, by omega⟩ (by show j.val = 0 * 256 + j.val; omega),
    fun k => stacked_apply x1 shapeCasts_S1x2x256x2048_S2x256x2048 shapeCasts_S2x256x2048_S512x2048 (1 : Fin 2) j k
      ⟨256 + j.val, by omega⟩ (by show 256 + j.val = 1 * 256 + j.val; omega)]

end Cert.MoePayload

end
-- ==== Proof.KernelPoint.lean ====
/-
  One grid point's contribution.

  If the token block holds rows tile * 512 … of expert e's tokens, the weight block the hidden rows hb * 256 … of both
  halves of expert e's up-and-gate weights, and the down block the same hidden rows of expert e's down weights, then
  the accumulate payload adds to the previous contents, at (r, d), exactly the contributions of the 256 hidden units of
  block hb to output entry (e, tile * 512 + r, d).
-/
import proofs.«127313_j8830452760817_2_alg».proof.Proof.KernelPayload
import proofs.«127313_j8830452760817_2_alg».proof.Proof.Spec

noncomputable section

namespace Cert.MoePayload

open Idealize.ShloMosaic Idealize.ShloMosaic.ValueIdx
open Cert.KernelIdeal Cert.KernelIdeal.Gen Cert.MoeSpec

theorem pay2_spec (X : SX.Idx → EReal) (W : SW.Idx → EReal) (D : SD.Idx → EReal) (e cb hb : ℕ)
    (x0 : Vec Ideal S1x512x2048 .bf16) (x1 : Vec Ideal S1x2x256x2048 .bf16) (x2 : Vec Ideal S1x256x2048 .bf16)
    (acc : Vec Ideal S1x512x2048 .f32)
    (hx0 : ∀ (r : Fin 512) (k : Fin 2048), x0 (ix3 (0 : Fin 1) r k) = atX X (e * 2048 + (cb * 512 + r.val)) k.val)
    (hx1 : ∀ (s : Fin 2) (j : Fin 256) (k : Fin 2048),
      x1 (ix4 (0 : Fin 1) s j k) = atW W e (s.val * 2048 + (hb * 256 + j.val)) k.val)
    (hx2 : ∀ (j : Fin 256) (d : Fin 2048), x2 (ix3 (0 : Fin 1) j d) = atD D e (hb * 256 + j.val) d.val)
    (r : Fin 512) (d : Fin 2048) :
    k0_pay2 (F := Ideal) x0 x1 x2 acc (ix3 (0 : Fin 1) r d)
      = acc (ix3 (0 : Fin 1) r d) + blockSum X W D e (cb * 512 + r.val) d.val hb := by
  rw [pay2_apply]
  refine congrArg (_ + ·) ?_
  unfold blockSum addend hact dotXW
  refine Finset.sum_congr rfl fun j _ => ?_
  simp only [hx0, hx1, hx2]
  have h0 : ((0 : Fin 2) : ℕ) = 0 := rfl
  have h1 : ((1 : Fin 2) : ℕ) = 1 := rfl
  rw [h0, h1, Nat.zero_mul, Nat.zero_add, Nat.one_mul]

end Cert.MoePayload

end
-- ==== Proof.KernelAccum.lean ====
/-
  What the output block holds after each grid point: the running total of the block sums.

  Grid point n stands for expert n / 32, token tile (n / 8) % 4 and hidden tile n % 8, the hidden tile running fastest.
  At the first point of a run (n % 8 = 0) the block is reset and receives 0 + the first block sum; at every later point
  of the run it receives what the point before left plus that point's block sum, the expert and token tile being those
  of the point before. So after point n entry (r, d) of the block is the running total, after n % 8 + 1 blocks, of the
  block sums of output entry (n / 32, (n / 8) % 4 * 512 + r, d) — by induction on the point.
-/
import proofs.«127313_j8830452760817_2_alg».proof.Proof.KernelPieces
import proofs.«127313_j8830452760817_2_alg».proof.Proof.KernelBlocks
import proofs.«127313_j8830452760817_2_alg».proof.Proof.KernelPoint

noncomputable section

namespace Cert.MoeAccum

open Idealize.ShloMosaic Idealize.ShloMosaic.TcCoe Idealize.SL.Sem Idealize.ShloMosaic.ValueIdx
open Cert.KernelIdeal Cert.KernelIdeal.Gen Cert.MoeSpec Cert.MoeKernel Cert.MoeBlocks Cert.MoePayload

variable (m : (ℓ : Loc nD τ sig) → Buf (Elt Ideal) ℓ)

/-- The three argument arrays on device c. -/
abbrev argX (c : Dev nD) : SX.Idx → EReal := m ((c : Thread nD τ).loc main_arg0)
abbrev argW (c : Dev nD) : SW.Idx → EReal := m ((c : Thread nD τ).loc main_arg1)
abbrev argD (c : Dev nD) : SD.Idx → EReal := m ((c : Thread nD τ).loc main_arg2)

/-- The block sums of the output entry that grid point n and block entry (r, d) stand for. -/
abbrev sums (c : Dev nD) (n : ℕ) (r : Fin 512) (d : Fin 2048) : ℕ → EReal :=
  blockSum (argX m c) (argW m c) (argD m c) (n / 32) (n / 8 % 4 * 512 + r.val) d.val

/-- The first point of a run: zero plus the point's block sum. -/
theorem first_point (c : Dev nD) (t : Fin cfg0.N) (h0 : t.val % 8 = 0) (r : Fin 512) (d : Fin 2048) :
    outsAt0 m c t.val t.isLt (ix3 (0 : Fin 1) r d) = 0 + sums m c t.val r d (t.val % 8) := by
  refine (congrFun (outsAt0_A m c t h0) (ix3 (0 : Fin 1) r d)).trans ?_
  refine (congrFun (out_A c (grid0.coords t) (ms0_0 t) (hs0_0 t) (ms0_1 t) (hs0_1 t) (ms0_2 t) (hs0_2 t) (ms0_3 t)
    (hs0_3 t) ((hcond0_0 t).mpr h0) (iblk m c 0 t) (iblk m c 1 t) (iblk m c 2 t)) (ix3 (0 : Fin 1) r d)).trans ?_
  refine (pay2_spec (argX m c) (argW m c) (argD m c) (t.val / 32) (t.val / 8 % 4) (t.val % 8)
    (iblk m c 0 t) (iblk m c 1 t) (iblk m c 2 t) (k0_pay1 (F := Ideal))
    (iblk0_at m c t) (iblk1_at m c t) (iblk2_at m c t) r d).trans ?_
  rw [pay1_apply]

/-- A later point of a run: what the point before left plus the point's block sum. -/
theorem later_point (c : Dev nD) (t : Fin cfg0.N) (h0 : ¬t.val % 8 = 0) (r : Fin 512) (d : Fin 2048) :
    outsAt0 m c t.val t.isLt (ix3 (0 : Fin 1) r d)
      = outsAt0 m c (t.val - 1) (Nat.lt_of_le_of_lt (Nat.sub_le _ _) t.isLt) (ix3 (0 : Fin 1) r d)
        + sums m c t.val r d (t.val % 8) := by
  refine (congrFun (outsAt0_B m c t h0) (ix3 (0 : Fin 1) r d)).trans ?_
  refine (congrFun (out_B c (grid0.coords t) (ms0_0 t) (hs0_0 t) (ms0_1 t) (hs0_1 t) (ms0_2 t) (hs0_2 t) (ms0_3 t)
    (hs0_3 t) (fun h => h0 ((hcond0_0 t).mp h)) (iblk m c 0 t) (iblk m c 1 t) (iblk m c 2 t)
    (outsAt0 m c (t.val - 1) (Nat.lt_of_le_of_lt (Nat.sub_le _ _) t.isLt))) (ix3 (0 : Fin 1) r d)).trans ?_
  exact pay2_spec (argX m c) (argW m c) (argD m c) (t.val / 32) (t.val / 8 % 4) (t.val % 8)
    (iblk m c 0 t) (iblk m c 1 t) (iblk m c 2 t) (outsAt0 m c (t.val - 1) (Nat.lt_of_le_of_lt (Nat.sub_le _ _) t.isLt))
    (iblk0_at m c t) (iblk1_at m c t) (iblk2_at m c t) r d

theorem step_expert (n : ℕ) (h : ¬(n + 1) % 8 = 0) : (n + 1) / 32 = n / 32 := by omega
theorem step_tile (n : ℕ) (h : ¬(n + 1) % 8 = 0) : (n + 1) / 8 % 4 = n / 8 % 4 := by omega
theorem step_hidden (n : ℕ) (h : ¬(n + 1) % 8 = 0) : (n + 1) % 8 = n % 8 + 1 := by omega

/-- After point n the block holds the running totals. -/
theorem outsAt_eq (c : Dev nD) : ∀ (n : ℕ) (h : n < cfg0.N) (r : Fin 512) (d : Fin 2048),
    outsAt0 m c n h (ix3 (0 : Fin 1) r d) = running (sums m c n r d) (n % 8)
  | 0, h, r, d => first_point m c ⟨0, h⟩ rfl r d
  | n + 1, h, r, d => by
    by_cases h0 : (n + 1) % 8 = 0
    · refine (first_point m c ⟨n + 1, h⟩ h0 r d).trans ?_
      show 0 + sums m c (n + 1) r d ((n + 1) % 8) = running (sums m c (n + 1) r d) ((n + 1) % 8)
      rw [h0]
      rfl
    · refine (later_point m c ⟨n + 1, h⟩ h0 r d).trans ?_
      show outsAt0 m c n _ (ix3 (0 : Fin 1) r d) + sums m c (n + 1) r d ((n + 1) % 8)
        = running (sums m c (n + 1) r d) ((n + 1) % 8)
      rw [outsAt_eq c n (Nat.lt_of_succ_lt h) r d]
      have e1 := step_expert n h0
      have e2 := step_tile n h0
      have e3 := step_hidden n h0
      have es : sums m c (n + 1) r d = sums m c n r d := by
        show blockSum _ _ _ ((n + 1) / 32) ((n + 1) / 8 % 4 * 512 + r.val) d.val
          = blockSum _ _ _ (n / 32) (n / 8 % 4 * 512 + r.val) d.val
        rw [e1, e2]
      rw [es, e3]
      rfl

end Cert.MoeAccum

end
-- ==== Proof.KernelValue.lean ====
/-
  The kernel's result array.

  The output block of expert e and token tile c is written back once, after the last hidden tile of its run (the grid
  points with n % 8 = 7), when it holds the running total after all eight blocks: by the blocked-sum law that is the
  full contraction over the 2048 hidden units, so what is written back is that block of the specification's grouped
  output. Every entry (e, row, d) of the grouped array lies in the block written back at point e * 32 + (row / 512) * 8 + 7,
  so the array ends holding the specification's grouped output, and the host's final reshape gives the result.
-/
import proofs.«127313_j8830452760817_2_alg».proof.Proof.KernelAccum
import Idealize.ShloMosaic.Lib.Pipeline.Value
import Idealize.ShloMosaic.Lib.StableHlo.Run
import Idealize.ShloMosaic.Lib.Tactic

noncomputable section

namespace Cert.MoeValue

open Idealize.ShloMosaic Idealize.ShloMosaic.TcCoe Idealize.SL.Sem Idealize.ShloMosaic.ValueIdx
open Idealize.ShloMosaic.Pipeline (Dat)
open Cert.KernelIdeal Cert.KernelIdeal.Gen Cert.MoeSpec Cert.MoeBlocks Cert.MoeAccum

variable (m : (ℓ : Loc nD τ sig) → Buf (Elt Ideal) ℓ) (ρ : Dev nD → PrngReg)

/-- The specification's grouped output of the argument arrays on device c. -/
abbrev grouped (c : Dev nD) : SD.Idx → EReal := out3 (argX m c) (argW m c) (argD m c)

theorem arith_e (n : ℕ) : n / 32 * 1 + 1 * 0 = n / 32 := by omega
theorem arith_row (n r : ℕ) : n / 8 % 4 * 512 + 1 * r = n / 8 % 4 * 512 + r := by omega
theorem arith_col (d : ℕ) : 0 * 2048 + 1 * d = d := by omega

set_option maxHeartbeats 1000000 in
/-- Entry (r, d) of what a write-back point holds is the grouped output at the block's position. -/
theorem flushed_at (c : Dev nD) (t : Fin cfg0.N) (h7 : t.val % 8 = 7) (r : Fin 512) (d : Fin 2048) :
    outsAt0 m c t.val t.isLt (ix3 (0 : Fin 1) r d)
      = grouped m c (((cfg0.win 3).blk t).view.emb (ix3 (0 : Fin 1) r d)) := by
  rw [outsAt_eq m c t.val t.isLt r d, h7]
  show _ = out3 (argX m c) (argW m c) (argD m c) (((cfg0.win 3).blk t).view.emb (ix3 (0 : Fin 1) r d))
  rw [out3_eq_running]
  obtain ⟨-, -, -, -, -, -, -, -, -, -, h0, h1, h2⟩ := idx_facts t
  have e0 : ((((cfg0.win 3).blk t).view.emb (ix3 (0 : Fin 1) r d)) 0).val = win0_3.index t 0 * 1 + 1 * 0 := rfl
  have e1 : ((((cfg0.win 3).blk t).view.emb (ix3 (0 : Fin 1) r d)) 1).val = win0_3.index t 1 * 512 + 1 * r.val := rfl
  have e2 : ((((cfg0.win 3).blk t).view.emb (ix3 (0 : Fin 1) r d)) 2).val = win0_3.index t 2 * 2048 + 1 * d.val := rfl
  rw [e0, e1, e2, h0, h1, h2, arith_e, arith_row, arith_col]

/-- What a write-back point writes back is its block of the grouped output. -/
theorem flushed_eq (c : Dev nD) (t : Fin cfg0.N) (hf : (cfg0.win 3).flush t = true) :
    (dats m 0 c).flushed 3 t = ((cfg0.win 3).blk t).view.read (Elt Ideal) (grouped m c) := by
  have h7 : t.val % 8 = 7 := (flush0_3 t).mp hf
  show (cfg0.win 3).cut (grid0.coords t) ((dats m 0 c).after 3 t) = _
  rw [after0_3]
  funext y
  show outsAt0 m c t.val t.isLt y = grouped m c (((cfg0.win 3).blk t).view.emb y)
  have ey : (y : S1x512x2048.Idx) = ix3 (0 : Fin 1) (y 1) (y 2) :=
    (eq_ix3 (y : S1x512x2048.Idx)).trans
      (congrArg (fun a : Fin 1 => ix3 a ((y : S1x512x2048.Idx) 1) ((y : S1x512x2048.Idx) 2))
        (Fin.eq_zero ((y : S1x512x2048.Idx) 0)))
  rw [ey]
  exact flushed_at m c t h7 _ _

/-- An entry of the grouped array lies in point t's block iff each coordinate lies in the block's range. -/
theorem mem_blk (t : Fin cfg0.N) (i : S16x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v5).slice (win0_3.rect t)).set ↔ _
  rw [View.set_slice_whole, Rect.mem_set_unit]
  exact Iff.rfl

theorem point_lt (a b : ℕ) (ha : a < 16) (hb : b < 2048) : a * 32 + b / 512 * 8 + 7 < 512 := by omega
theorem point_mod (a b : ℕ) : (a * 32 + b / 512 * 8 + 7) % 8 = 7 := by omega
theorem point_e (a b : ℕ) (hb : b < 2048) : (a * 32 + b / 512 * 8 + 7) / 32 = a := by omega
theorem point_tile (a b : ℕ) (hb : b < 2048) : (a * 32 + b / 512 * 8 + 7) / 8 % 4 = b / 512 := by omega
theorem in_expert (a : ℕ) : a * 1 ≤ a ∧ a < a * 1 + 1 := by omega
theorem in_tile (b : ℕ) : b / 512 * 512 ≤ b ∧ b < b / 512 * 512 + 512 := by omega
theorem in_cols (d : ℕ) (hd : d < 2048) : 0 * 2048 ≤ d ∧ d < 0 * 2048 + 2048 := by omega

set_option maxHeartbeats 1000000 in
/-- Every entry of the grouped array is in the block some write-back point writes. -/
theorem cover (i : S16x2048x2048.Idx) :
    ∃ t : Fin cfg0.N, (cfg0.win 3).flush t = true ∧ i ∈ ((cfg0.win 3).blk t).view.set := by
  have hN : cfg0.N = 512 := N_0
  refine ⟨⟨(i 0).val * 32 + (i 1).val / 512 * 8 + 7, by rw [hN]; exact point_lt _ _ (i 0).isLt (i 1).isLt⟩,
    (flush0_3 _).mpr (point_mod _ _), ?_⟩
  rw [mem_blk]
  obtain ⟨-, -, -, -, -, -, -, -, -, -, h0, h1, h2⟩ :=
    idx_facts ⟨(i 0).val * 32 + (i 1).val / 512 * 8 + 7, by rw [hN]; exact point_lt _ _ (i 0).isLt (i 1).isLt⟩
  intro a
  match a with
  | ⟨0, _⟩ =>
    show win0_3.index _ 0 * 1 ≤ (i 0).val ∧ (i 0).val < win0_3.index _ 0 * 1 + 1
    rw [h0]
    show ((i 0).val * 32 + (i 1).val / 512 * 8 + 7) / 32 * 1 ≤ (i 0).val
      ∧ (i 0).val < ((i 0).val * 32 + (i 1).val / 512 * 8 + 7) / 32 * 1 + 1
    rw [point_e _ _ (i 1).isLt]
    exact in_expert _
  | ⟨1, _⟩ =>
    show win0_3.index _ 1 * 512 ≤ (i 1).val ∧ (i 1).val < win0_3.index _ 1 * 512 + 512
    rw [h1]
    show ((i 0).val * 32 + (i 1).val / 512 * 8 + 7) / 8 % 4 * 512 ≤ (i 1).val
      ∧ (i 1).val < ((i 0).val * 32 + (i 1).val / 512 * 8 + 7) / 8 % 4 * 512 + 512
    rw [point_tile _ _ (i 1).isLt]
    exact in_tile _
  | ⟨2, _⟩ =>
    show win0_3.index _ 2 * 2048 ≤ (i 2).val ∧ (i 2).val < win0_3.index _ 2 * 2048 + 2048
    rw [h2]
    exact in_cols _ (i 2).isLt

/-- The grouped array after the region. -/
theorem final (c : Dev nD) : (dats m 0 c).arrAt 3 cfg0.N = grouped m c :=
  (dats m 0 c).arrAt_eq_of_cover 3 (grouped m c) (flushed_eq m c) cover

/-- The result array after the host's final reshape. -/
theorem tail_v6 (c : Dev nD) :
    Pipeline.afterTail₀ cfgs (dats m) 0 (V0 m) [hostOps1] c main_v6
      = shapeCast S32768x2048 (grouped m c) shapeCasts_S16x2048x2048_S32768x2048 := by
  unfold Pipeline.afterTail₀
  show StableHlo.after hostOps1 _ (Proc.devRef .tc main_v6) = _
  after_results
  show shapeCast S32768x2048 (Pipeline.withArrays spec0 c (V0 m c) (fun w => (dats m 0 c).arrAt w cfg0.N)
      (Proc.devRef .tc (Pipeline.arrRef spec0 3))) shapeCasts_S16x2048x2048_S32768x2048 = _
  exact congrArg (fun x => shapeCast S32768x2048 x shapeCasts_S16x2048x2048_S32768x2048)
    ((Pipeline.withArrays_arr spec0 launch0.win.arr_inj c _ _ 3).trans (final m c))

/-- The kernel's run: the result array at the reshaped grouped output, the arguments unchanged. -/
theorem run : θ_run defs (onTc (τ := τ) (main (F := Ideal))) ⟨m, fun _ => 0, ρ⟩ fun r => ∀ c : Dev nD,
      r.2.mem ((c.tc : Thread nD τ).loc main_v6)
        = shapeCast S32768x2048 (grouped m c) shapeCasts_S16x2048x2048_S32768x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MoeValue

end
-- ==== Proof.RefValue.lean ====
/-
  The reference computes the specification.

  Read one operation at a time, the reference's grouped result [16, 2048, 2048] at (e, row, d) is the contraction over
  the 2048 hidden units of (up * (gate * (1 / (1 + exp (-gate))))) with the down weights, where up and gate are entries
  h and 2048 + h of the row's product with expert e's up-and-gate weights, and the row is read out of the token array at
  e * 2048 + row (the reshape [32768, 2048] -> [16, 2048, 2048] keeps the row-major position). On the extended reals
  1 / (1 + exp (-g)) is the logistic function of g by definition, and the literal 0x3F800000 is 1.
-/
import proofs.«127313_j8830452760817_2_alg».proof.Proof.Gen.ReferenceIdeal.Read
import proofs.«127313_j8830452760817_2_alg».proof.Proof.Spec

noncomputable section

namespace Cert.MoeRef

open Cert.ReferenceIdeal Cert.ReferenceIdeal.Read Idealize.ShloMosaic Cert.MoeSpec

/-- The binary32 pattern 0x3F800000 is the number one. -/
theorem one_f32 : Ideal.ofBits .f32 0x3F800000#32 = 1 := by
  simp [Ideal.ofBits, Ideal.ieee, -EReal.coe_mul]; norm_num

/-- The first product at (e, row, n): the token row e * 2048 + row contracted with weight row n of expert e. -/
theorem v1_apply (x0 : SX.Idx → EReal) (x1 : SW.Idx → EReal) (i : S16x2048x4096.Idx) :
    val_main_v1 (F := Ideal) x0 x1 i = dotXW x0 x1 (i 0).val (i 1).val (i 2).val := by
  rw [val_main_v1_apply]
  unfold dotXW
  refine Finset.sum_congr rfl fun k _ => ?_
  rw [val_main_v0_apply]
  refine congrArg₂ (· * ·) (atX_eq x0 _ _ _ ?_ ?_) (atW_eq x1 _ _ _ _ rfl rfl rfl)
  · have h1 : (i 1).val < 2048 := (i 1).isLt
    have hk : k.val < 2048 := k.isLt
    show (((i 0).val * 2048 + (i 1).val) * 2048 + k.val) / 2048 = (i 0).val * 2048 + (i 1).val
    omega
  · have hk : k.val < 2048 := k.isLt
    show (((i 0).val * 2048 + (i 1).val) * 2048 + k.val) % 2048 = k.val
    omega

/-- The activated hidden layer at (e, row, h). -/
theorem v5_apply (x0 : SX.Idx → EReal) (x1 : SW.Idx → EReal) (i : S16x2048x2048.Idx) :
    val_main_v5 (F := Ideal) x0 x1 i = hact x0 x1 (i 0).val (i 1).val (i 2).val := by
  rw [val_main_v5_apply, val_main_v2_apply, val_main_v4_apply, val_main_call0_v5_apply, val_main_call0_v4_apply,
    val_main_call0_cst_0_apply, val_main_call0_v3_apply, val_main_call0_v2_apply, val_main_call0_cst_apply,
    val_main_call0_v1_apply, val_main_call0_v0_apply, val_main_v3_apply, v1_apply, v1_apply]
  unfold hact
  simp only [Ideal.ofBits_def, one_f32]
  rfl

/-- The reference's grouped result is the specification's. -/
theorem v6_eq (x0 : SX.Idx → EReal) (x1 : SW.Idx → EReal) (x2 : SD.Idx → EReal) :
    val_main_v6 (F := Ideal) x0 x1 x2 = out3 x0 x1 x2 := by
  funext i
  rw [val_main_v6_apply]
  unfold out3
  refine Finset.sum_congr rfl fun h _ => ?_
  rw [v5_apply]
  unfold addend
  exact congrArg₂ (· * ·) rfl (atD_eq x2 _ _ _ _ rfl rfl rfl)

end Cert.MoeRef

end
-- ==== Proof.lean ====
/-
  A mixture-of-experts feed-forward block computed tile by tile equals the batched reference, on the extended reals.

  The kernel walks a grid of 16 experts x 4 token tiles x 8 hidden tiles. At each point it multiplies a [512, 2048]
  token tile with a [512, 2048] stack of 256 up rows and 256 gate rows of the expert's weights, forms
  up * (gate * logistic gate) on the [512, 256] result, multiplies that with the matching [256, 2048] rows of the
  expert's down weights, and adds the product into the output tile, which is reset at the first hidden tile and written
  back after the last. The reference contracts each expert's 2048 tokens with all 4096 up-and-gate rows at once, splits
  the result into its two halves, forms up * (gate * (1 / (1 + exp (-gate)))), and contracts the 2048 hidden units with
  the down weights.

  On the extended reals a change of float format is the identity, a matrix product into a zero accumulator is the sum of
  products, and 1 / (1 + exp (-g)) is the logistic function of g. So both programs compute, for expert e, token row and
  column d, the sum over the 2048 hidden units h of (up_h * (gate_h * logistic gate_h)) * down[e, h, d]; the kernel
  takes it as 0 + (block 0) + … + (block 7) over eight blocks of 256 hidden units. Addition on the extended reals is
  commutative and associative with neutral zero, so the two groupings agree, and the finiteness of the inputs is never
  used. Both programs end with the same reshape of the [16, 2048, 2048] grouped output to [32768, 2048].

  No operation of the kernel was rewritten by the idealization, so the kernel's idealization claim is trivial. The three
  frames are the generated frame runs of the two kernel programs and the reference's run with its result dropped.
-/
import proofs.«127313_j8830452760817_2_alg».proof.Defs
import proofs.«127313_j8830452760817_2_alg».proof.Proof.Gen.Kernel
import proofs.«127313_j8830452760817_2_alg».proof.Proof.Gen.Kernel.Skeleton
import proofs.«127313_j8830452760817_2_alg».proof.Proof.Gen.Kernel.Launch
import proofs.«127313_j8830452760817_2_alg».proof.Proof.Gen.Kernel.Points
import proofs.«127313_j8830452760817_2_alg».proof.Proof.Gen.Kernel.Frame
import proofs.«127313_j8830452760817_2_alg».proof.Proof.Gen.KernelIdeal
import proofs.«127313_j8830452760817_2_alg».proof.Proof.Gen.KernelIdeal.Skeleton
import proofs.«127313_j8830452760817_2_alg».proof.Proof.Gen.KernelIdeal.Launch
import proofs.«127313_j8830452760817_2_alg».proof.Proof.Gen.KernelIdeal.Points
import proofs.«127313_j8830452760817_2_alg».proof.Proof.Gen.KernelIdeal.Frame
import proofs.«127313_j8830452760817_2_alg».proof.Proof.Gen.ReferenceIdeal
import proofs.«127313_j8830452760817_2_alg».proof.Proof.Gen.Pre_finite_inputs
import proofs.«127313_j8830452760817_2_alg».proof.Proof.Gen.ReferenceIdeal.Run
import proofs.«127313_j8830452760817_2_alg».proof.Proof.Gen.ReferenceIdeal.Read
import proofs.«127313_j8830452760817_2_alg».proof.Proof.KernelValue
import proofs.«127313_j8830452760817_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the reshaped grouped output of the specification, of arguments that agree. -/
theorem algebraic : Cert.algebraic_KernelIdeal_ReferenceIdeal := by
  intro m ρ m' ρ' _ hagree
  refine ⟨fun c => shapeCast Cert.KernelIdeal.S32768x2048 (Cert.MoeValue.grouped m c)
    Cert.KernelIdeal.Facts₀.shapeCasts_S16x2048x2048_S32768x2048, Cert.MoeValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq]
  unfold Cert.ReferenceIdeal.Read.val_main_v7
  rw [Cert.MoeRef.v6_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
